-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x128 : Shape := ⟨4, ![4, 8, 128, 128]⟩
abbrev S16x8x5x5 : Shape := ⟨4, ![16, 8, 5, 5]⟩
abbrev S_ : Shape := ⟨0, ![]⟩

class Facts : Prop where
  bcast_S_S4x8x128x128 : S_.BroadcastsInDim S4x8x128x128 (![] : Fin 0 → Fin S4x8x128x128.rank)
  reducesTo_S4x8x128x128_S_d0_1_2_3 : S4x8x128x128.ReducesTo [0, 1, 2, 3] S_
  h_S_ : 0 < S_.numel
  bcast_S_S16x8x5x5 : S_.BroadcastsInDim S16x8x5x5 (![] : Fin 0 → Fin S16x8x5x5.rank)
  reducesTo_S16x8x5x5_S_d0_1_2_3 : S16x8x5x5.ReducesTo [0, 1, 2, 3] S_

variable [Facts]

def fn {F : FTy → Type} [FloatOps F] (main_arg0 : FVec F S4x8x128x128 .f32) (main_arg1 : FVec F S16x8x5x5 .f32) : IVec S_ 1 :=
  let main_v0 : FVec F S4x8x128x128 .f32 := Host.absf main_arg0
  let main_cst : FVec F S_ .f32 := constant S_ .f32 0x7F800000#32
  let main_v1 : FVec F S4x8x128x128 .f32 := broadcastInDim S4x8x128x128 ![] bcast_S_S4x8x128x128 main_cst
  let main_v2 : IVec S4x8x128x128 1 := cmpf .olt main_v0 main_v1
  let main_c : IVec S_ 1 := constantI S_ 1 1#1
  let main_v3 : IVec S_ 1 := (fun x v => Host.reduce IntOp.andi x v reducesTo_S4x8x128x128_S_d0_1_2_3 h_S_) main_v2 main_c
  let main_v4 : FVec F S16x8x5x5 .f32 := Host.absf main_arg1
  let main_cst_0 : FVec F S_ .f32 := constant S_ .f32 0x7F800000#32
  let main_v5 : FVec F S16x8x5x5 .f32 := broadcastInDim S16x8x5x5 ![] bcast_S_S16x8x5x5 main_cst_0
  let main_v6 : IVec S16x8x5x5 1 := cmpf .olt main_v4 main_v5
  let main_c_1 : IVec S_ 1 := constantI S_ 1 1#1
  let main_v7 : IVec S_ 1 := (fun x v => Host.reduce IntOp.andi x v reducesTo_S16x8x5x5_S_d0_1_2_3 h_S_) main_v6 main_c_1
  let main_v8 : IVec S_ 1 := andi main_v3 main_v7
  main_v8
-- ==== Kernel.lean ====
abbrev S4x8x128x128 : Shape := ⟨4, ![4, 8, 128, 128]⟩
abbrev S16x8x5x5 : Shape := ⟨4, ![16, 8, 5, 5]⟩
abbrev S5x5x8x16 : Shape := ⟨4, ![5, 5, 8, 16]⟩
abbrev S200x16 : Shape := ⟨2, ![200, 16]⟩
abbrev S4x16x128x128 : Shape := ⟨4, ![4, 16, 128, 128]⟩
abbrev S1x8x128x128 : Shape := ⟨4, ![1, 8, 128, 128]⟩
abbrev S1x16x128x128 : Shape := ⟨4, ![1, 16, 128, 128]⟩
abbrev S8x128x128 : Shape := ⟨3, ![8, 128, 128]⟩
abbrev S16x128x128 : Shape := ⟨3, ![16, 128, 128]⟩
abbrev S8x16 : Shape := ⟨2, ![8, 16]⟩
abbrev S1x128x128 : Shape := ⟨3, ![1, 128, 128]⟩
abbrev S128x128 : Shape := ⟨2, ![128, 128]⟩
abbrev S1x16 : Shape := ⟨2, ![1, 16]⟩
abbrev S16 : Shape := ⟨1, ![16]⟩
abbrev S16x1x1 : Shape := ⟨3, ![16, 1, 1]⟩
abbrev S4x16x124x124 : Shape := ⟨4, ![4, 16, 124, 124]⟩

abbrev nBuf : Space → Nat
  | .hbm => 7
  | .vmem => 5
  | .smem => 0
  | _ => 0

abbrev bufTy : (tb : Table) → Fin (tcTables nBuf tb) → BufTy
  | .hbm, ⟨0, _⟩ => ⟨S4x8x128x128, .f32⟩
  | .hbm, ⟨1, _⟩ => ⟨S16x8x5x5, .f32⟩
  | .hbm, ⟨2, _⟩ => ⟨S16x8x5x5, .f32⟩
  | .hbm, ⟨3, _⟩ => ⟨S5x5x8x16, .f32⟩
  | .hbm, ⟨4, _⟩ => ⟨S200x16, .f32⟩
  | .hbm, ⟨5, _⟩ => ⟨S4x16x128x128, .f32⟩
  | .hbm, ⟨6, _⟩ => ⟨S4x16x124x124, .f32⟩
  | .local _ .vmem, ⟨0, _⟩ => ⟨S1x8x128x128, .f32⟩
  | .local _ .vmem, ⟨1, _⟩ => ⟨S1x8x128x128, .f32⟩
  | .local _ .vmem, ⟨2, _⟩ => ⟨S200x16, .f32⟩
  | .local _ .vmem, ⟨3, _⟩ => ⟨S1x16x128x128, .f32⟩
  | .local _ .vmem, ⟨4, _⟩ => ⟨S1x16x128x128, .f32⟩
  | _, _ => ⟨S4x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x8x5x5_S5x5x8x16_2_3_1_0 : S16x8x5x5.Transposes [2, 3, 1, 0] S5x5x8x16
  shapeCasts_S5x5x8x16_S200x16 : S5x5x8x16.ShapeCasts S200x16
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  inb_S200x16_S200x16_0_0 : ∀ a, (![0, 0] : Fin 2 → Nat) a + S200x16.size a ≤ S200x16.size a
  h_S200x16 : 0 < S200x16.numel
  shapeCasts_S200x16_S200x16 : S200x16.ShapeCasts S200x16
  rotates_S8x128x128_d1 : S8x128x128.Rotates 1 none
  rotates_S8x128x128_d2 : S8x128x128.Rotates 2 none
  slices_S200x16_o0_0_S8x16 : S200x16.Slices ![0, 0] S8x16
  slices_S8x128x128_o0_0_0_S1x128x128 : S8x128x128.Slices ![0, 0, 0] S1x128x128
  shapeCasts_S1x128x128_S128x128 : S1x128x128.ShapeCasts S128x128
  shapeCasts_S128x128_S1x128x128 : S128x128.ShapeCasts S1x128x128
  slices_S8x16_o0_0_S1x16 : S8x16.Slices ![0, 0] S1x16
  shapeCasts_S1x16_S16 : S1x16.ShapeCasts S16
  shapeCasts_S16_S16x1x1 : S16.ShapeCasts S16x1x1
  broadcasts_S1x128x128_S16x128x128 : S1x128x128.Broadcasts S16x128x128
  broadcasts_S16x1x1_S16x128x128 : S16x1x1.Broadcasts S16x128x128
  slices_S8x128x128_o1_0_0_S1x128x128 : S8x128x128.Slices ![1, 0, 0] S1x128x128
  slices_S8x16_o1_0_S1x16 : S8x16.Slices ![1, 0] S1x16
  slices_S8x128x128_o2_0_0_S1x128x128 : S8x128x128.Slices ![2, 0, 0] S1x128x128
  slices_S8x16_o2_0_S1x16 : S8x16.Slices ![2, 0] S1x16
  slices_S8x128x128_o3_0_0_S1x128x128 : S8x128x128.Slices ![3, 0, 0] S1x128x128
  slices_S8x16_o3_0_S1x16 : S8x16.Slices ![3, 0] S1x16
  slices_S8x128x128_o4_0_0_S1x128x128 : S8x128x128.Slices ![4, 0, 0] S1x128x128
  slices_S8x16_o4_0_S1x16 : S8x16.Slices ![4, 0] S1x16
  slices_S8x128x128_o5_0_0_S1x128x128 : S8x128x128.Slices ![5, 0, 0] S1x128x128
  slices_S8x16_o5_0_S1x16 : S8x16.Slices ![5, 0] S1x16
  slices_S8x128x128_o6_0_0_S1x128x128 : S8x128x128.Slices ![6, 0, 0] S1x128x128
  slices_S8x16_o6_0_S1x16 : S8x16.Slices ![6, 0] S1x16
  slices_S8x128x128_o7_0_0_S1x128x128 : S8x128x128.Slices ![7, 0, 0] S1x128x128
  slices_S8x16_o7_0_S1x16 : S8x16.Slices ![7, 0] S1x16
  slices_S200x16_o8_0_S8x16 : S200x16.Slices ![8, 0] S8x16
  slices_S200x16_o16_0_S8x16 : S200x16.Slices ![16, 0] S8x16
  slices_S200x16_o24_0_S8x16 : S200x16.Slices ![24, 0] S8x16
  slices_S200x16_o32_0_S8x16 : S200x16.Slices ![32, 0] S8x16
  slices_S200x16_o40_0_S8x16 : S200x16.Slices ![40, 0] S8x16
  slices_S200x16_o48_0_S8x16 : S200x16.Slices ![48, 0] S8x16
  slices_S200x16_o56_0_S8x16 : S200x16.Slices ![56, 0] S8x16
  slices_S200x16_o64_0_S8x16 : S200x16.Slices ![64, 0] S8x16
  slices_S200x16_o72_0_S8x16 : S200x16.Slices ![72, 0] S8x16
  slices_S200x16_o80_0_S8x16 : S200x16.Slices ![80, 0] S8x16
  slices_S200x16_o88_0_S8x16 : S200x16.Slices ![88, 0] S8x16
  slices_S200x16_o96_0_S8x16 : S200x16.Slices ![96, 0] S8x16
  slices_S200x16_o104_0_S8x16 : S200x16.Slices ![104, 0] S8x16
  slices_S200x16_o112_0_S8x16 : S200x16.Slices ![112, 0] S8x16
  slices_S200x16_o120_0_S8x16 : S200x16.Slices ![120, 0] S8x16
  slices_S200x16_o128_0_S8x16 : S200x16.Slices ![128, 0] S8x16
  slices_S200x16_o136_0_S8x16 : S200x16.Slices ![136, 0] S8x16
  slices_S200x16_o144_0_S8x16 : S200x16.Slices ![144, 0] S8x16
  slices_S200x16_o152_0_S8x16 : S200x16.Slices ![152, 0] S8x16
  slices_S200x16_o160_0_S8x16 : S200x16.Slices ![160, 0] S8x16
  slices_S200x16_o168_0_S8x16 : S200x16.Slices ![168, 0] S8x16
  slices_S200x16_o176_0_S8x16 : S200x16.Slices ![176, 0] S8x16
  slices_S200x16_o184_0_S8x16 : S200x16.Slices ![184, 0] S8x16
  slices_S200x16_o192_0_S8x16 : S200x16.Slices ![192, 0] S8x16
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  slices_S4x16x128x128_S4x16x124x124_0_0_0_0 : S4x16x128x128.Slices ![0, 0, 0, 0] S4x16x124x124
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x128.size a ≤ S4x8x128x128.size a
  hwx0_0 : ∀ i : grid0.Coords, EltTy.bits .f32 = 32 ∨ (Rect.block (s := S4x8x128x128) S1x8x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x16.size a ≤ S200x16.size a
  hwx0_1 : ∀ i : grid0.Coords, EltTy.bits .f32 = 32 ∨ (Rect.block (s := S200x16) S200x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S4x16x128x128.size a
  hwx0_2 : ∀ i : grid0.Coords, EltTy.bits .f32 = 32 ∨ (Rect.block (s := S4x16x128x128) S1x16x128x128.size (cc0_transform_2 i) (hinb0_2 i)).WholeWords (EltTy.packing .f32)

variable [Facts₀]

abbrev win0_0 : Pipeline.Window sig grid0 :=
  Pipeline.Window.ofSpec (Memref.whole main_arg0) S1x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S200x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x128x128 : Shape := ⟨4, ![4, 8, 128, 128]⟩
abbrev S16x8x5x5 : Shape := ⟨4, ![16, 8, 5, 5]⟩
abbrev S4x8x124x124 : Shape := ⟨4, ![4, 8, 124, 124]⟩
abbrev S4x8x1x124x124 : Shape := ⟨5, ![4, 8, 1, 124, 124]⟩
abbrev S4x8x16x124x124 : Shape := ⟨5, ![4, 8, 16, 124, 124]⟩
abbrev S4x8x9x124x124 : Shape := ⟨5, ![4, 8, 9, 124, 124]⟩
abbrev S4x8x25x124x124 : Shape := ⟨5, ![4, 8, 25, 124, 124]⟩
abbrev S4x200x15376 : Shape := ⟨3, ![4, 200, 15376]⟩
abbrev S16x200 : Shape := ⟨2, ![16, 200]⟩
abbrev S1x16x200x1 : Shape := ⟨4, ![1, 16, 200, 1]⟩
abbrev S4x1x200x15376 : Shape := ⟨4, ![4, 1, 200, 15376]⟩
abbrev S4x16x200x15376 : Shape := ⟨4, ![4, 16, 200, 15376]⟩
abbrev S_ : Shape := ⟨0, ![]⟩
abbrev S4x16x15376 : Shape := ⟨3, ![4, 16, 15376]⟩
abbrev S4x16x124x124 : Shape := ⟨4, ![4, 16, 124, 124]⟩

abbrev nBuf : Space → Nat
  | .hbm => 66
  | .vmem => 0
  | .smem => 0
  | _ => 0

abbrev bufTy : (tb : Table) → Fin (tcTables nBuf tb) → BufTy
  | .hbm, ⟨0, _⟩ => ⟨S4x8x128x128, .f32⟩
  | .hbm, ⟨1, _⟩ => ⟨S16x8x5x5, .f32⟩
  | .hbm, ⟨2, _⟩ => ⟨S16x8x5x5, .f32⟩
  | .hbm, ⟨3, _⟩ => ⟨S4x8x124x124, .f32⟩
  | .hbm, ⟨4, _⟩ => ⟨S4x8x124x124, .f32⟩
  | .hbm, ⟨5, _⟩ => ⟨S4x8x124x124, .f32⟩
  | .hbm, ⟨6, _⟩ => ⟨S4x8x124x124, .f32⟩
  | .hbm, ⟨7, _⟩ => ⟨S4x8x124x124, .f32⟩
  | .hbm, ⟨8, _⟩ => ⟨S4x8x124x124, .f32⟩
  | .hbm, ⟨9, _⟩ => ⟨S4x8x124x124, .f32⟩
  | .hbm, ⟨10, _⟩ => ⟨S4x8x124x124, .f32⟩
  | .hbm, ⟨11, _⟩ => ⟨S4x8x124x124, .f32⟩
  | .hbm, ⟨12, _⟩ => ⟨S4x8x124x124, .f32⟩
  | .hbm, ⟨13, _⟩ => ⟨S4x8x124x124, .f32⟩
  | .hbm, ⟨14, _⟩ => ⟨S4x8x124x124, .f32⟩
  | .hbm, ⟨15, _⟩ => ⟨S4x8x124x124, .f32⟩
  | .hbm, ⟨16, _⟩ => ⟨S4x8x124x124, .f32⟩
  | .hbm, ⟨17, _⟩ => ⟨S4x8x124x124, .f32⟩
  | .hbm, ⟨18, _⟩ => ⟨S4x8x124x124, .f32⟩
  | .hbm, ⟨19, _⟩ => ⟨S4x8x124x124, .f32⟩
  | .hbm, ⟨20, _⟩ => ⟨S4x8x124x124, .f32⟩
  | .hbm, ⟨21, _⟩ => ⟨S4x8x124x124, .f32⟩
  | .hbm, ⟨22, _⟩ => ⟨S4x8x124x124, .f32⟩
  | .hbm, ⟨23, _⟩ => ⟨S4x8x124x124, .f32⟩
  | .hbm, ⟨24, _⟩ => ⟨S4x8x124x124, .f32⟩
  | .hbm, ⟨25, _⟩ => ⟨S4x8x124x124, .f32⟩
  | .hbm, ⟨26, _⟩ => ⟨S4x8x124x124, .f32⟩
  | .hbm, ⟨27, _⟩ => ⟨S4x8x124x124, .f32⟩
  | .hbm, ⟨28, _⟩ => ⟨S4x8x1x124x124, .f32⟩
  | .hbm, ⟨29, _⟩ => ⟨S4x8x1x124x124, .f32⟩
  | .hbm, ⟨30, _⟩ => ⟨S4x8x1x124x124, .f32⟩
  | .hbm, ⟨31, _⟩ => ⟨S4x8x1x124x124, .f32⟩
  | .hbm, ⟨32, _⟩ => ⟨S4x8x1x124x124, .f32⟩
  | .hbm, ⟨33, _⟩ => ⟨S4x8x1x124x124, .f32⟩
  | .hbm, ⟨34, _⟩ => ⟨S4x8x1x124x124, .f32⟩
  | .hbm, ⟨35, _⟩ => ⟨S4x8x1x124x124, .f32⟩
  | .hbm, ⟨36, _⟩ => ⟨S4x8x1x124x124, .f32⟩
  | .hbm, ⟨37, _⟩ => ⟨S4x8x1x124x124, .f32⟩
  | .hbm, ⟨38, _⟩ => ⟨S4x8x1x124x124, .f32⟩
  | .hbm, ⟨39, _⟩ => ⟨S4x8x1x124x124, .f32⟩
  | .hbm, ⟨40, _⟩ => ⟨S4x8x1x124x124, .f32⟩
  | .hbm, ⟨41, _⟩ => ⟨S4x8x1x124x124, .f32⟩
  | .hbm, ⟨42, _⟩ => ⟨S4x8x1x124x124, .f32⟩
  | .hbm, ⟨43, _⟩ => ⟨S4x8x1x124x124, .f32⟩
  | .hbm, ⟨44, _⟩ => ⟨S4x8x1x124x124, .f32⟩
  | .hbm, ⟨45, _⟩ => ⟨S4x8x1x124x124, .f32⟩
  | .hbm, ⟨46, _⟩ => ⟨S4x8x1x124x124, .f32⟩
  | .hbm, ⟨47, _⟩ => ⟨S4x8x1x124x124, .f32⟩
  | .hbm, ⟨48, _⟩ => ⟨S4x8x1x124x124, .f32⟩
  | .hbm, ⟨49, _⟩ => ⟨S4x8x1x124x124, .f32⟩
  | .hbm, ⟨50, _⟩ => ⟨S4x8x1x124x124, .f32⟩
  | .hbm, ⟨51, _⟩ => ⟨S4x8x1x124x124, .f32⟩
  | .hbm, ⟨52, _⟩ => ⟨S4x8x1x124x124, .f32⟩
  | .hbm, ⟨53, _⟩ => ⟨S4x8x16x124x124, .f32⟩
  | .hbm, ⟨54, _⟩ => ⟨S4x8x9x124x124, .f32⟩
  | .hbm, ⟨55, _⟩ => ⟨S4x8x25x124x124, .f32⟩
  | .hbm, ⟨56, _⟩ => ⟨S4x200x15376, .f32⟩
  | .hbm, ⟨57, _⟩ => ⟨S16x200, .f32⟩
  | .hbm, ⟨58, _⟩ => ⟨S1x16x200x1, .f32⟩
  | .hbm, ⟨59, _⟩ => ⟨S4x1x200x15376, .f32⟩
  | .hbm, ⟨60, _⟩ => ⟨S4x16x200x15376, .f32⟩
  | .hbm, ⟨61, _⟩ => ⟨S4x16x200x15376, .f32⟩
  | .hbm, ⟨62, _⟩ => ⟨S4x16x200x15376, .f32⟩
  | .hbm, ⟨63, _⟩ => ⟨S_, .f32⟩
  | .hbm, ⟨64, _⟩ => ⟨S4x16x15376, .f32⟩
  | .hbm, ⟨65, _⟩ => ⟨S4x16x124x124, .f32⟩
  | _, _ => ⟨S4x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_cst : Ref sig .tc := ⟨.hbm, 63, rfl⟩
abbrev main_v61 : Ref sig .tc := ⟨.hbm, 64, rfl⟩
abbrev main_v62 : Ref sig .tc := ⟨.hbm, 65, rfl⟩

abbrev nD : Nat := 1
abbrev τ : Topo := Topo.v7x

variable {F : FTy → Type} [FloatOps F]

class Facts₀ : Prop where
  slices_S4x8x128x128_S4x8x124x124_0_0_0_0 : S4x8x128x128.Slices ![0, 0, 0, 0] S4x8x124x124
  slices_S4x8x128x128_S4x8x124x124_0_0_0_1 : S4x8x128x128.Slices ![0, 0, 0, 1] S4x8x124x124
  slices_S4x8x128x128_S4x8x124x124_0_0_0_2 : S4x8x128x128.Slices ![0, 0, 0, 2] S4x8x124x124
  slices_S4x8x128x128_S4x8x124x124_0_0_0_3 : S4x8x128x128.Slices ![0, 0, 0, 3] S4x8x124x124
  slices_S4x8x128x128_S4x8x124x124_0_0_0_4 : S4x8x128x128.Slices ![0, 0, 0, 4] S4x8x124x124
  slices_S4x8x128x128_S4x8x124x124_0_0_1_0 : S4x8x128x128.Slices ![0, 0, 1, 0] S4x8x124x124
  slices_S4x8x128x128_S4x8x124x124_0_0_1_1 : S4x8x128x128.Slices ![0, 0, 1, 1] S4x8x124x124
  slices_S4x8x128x128_S4x8x124x124_0_0_1_2 : S4x8x128x128.Slices ![0, 0, 1, 2] S4x8x124x124
  slices_S4x8x128x128_S4x8x124x124_0_0_1_3 : S4x8x128x128.Slices ![0, 0, 1, 3] S4x8x124x124
  slices_S4x8x128x128_S4x8x124x124_0_0_1_4 : S4x8x128x128.Slices ![0, 0, 1, 4] S4x8x124x124
  slices_S4x8x128x128_S4x8x124x124_0_0_2_0 : S4x8x128x128.Slices ![0, 0, 2, 0] S4x8x124x124
  slices_S4x8x128x128_S4x8x124x124_0_0_2_1 : S4x8x128x128.Slices ![0, 0, 2, 1] S4x8x124x124
  slices_S4x8x128x128_S4x8x124x124_0_0_2_2 : S4x8x128x128.Slices ![0, 0, 2, 2] S4x8x124x124
  slices_S4x8x128x128_S4x8x124x124_0_0_2_3 : S4x8x128x128.Slices ![0, 0, 2, 3] S4x8x124x124
  slices_S4x8x128x128_S4x8x124x124_0_0_2_4 : S4x8x128x128.Slices ![0, 0, 2, 4] S4x8x124x124
  slices_S4x8x128x128_S4x8x124x124_0_0_3_0 : S4x8x128x128.Slices ![0, 0, 3, 0] S4x8x124x124
  slices_S4x8x128x128_S4x8x124x124_0_0_3_1 : S4x8x128x128.Slices ![0, 0, 3, 1] S4x8x124x124
  slices_S4x8x128x128_S4x8x124x124_0_0_3_2 : S4x8x128x128.Slices ![0, 0, 3, 2] S4x8x124x124
  slices_S4x8x128x128_S4x8x124x124_0_0_3_3 : S4x8x128x128.Slices ![0, 0, 3, 3] S4x8x124x124
  slices_S4x8x128x128_S4x8x124x124_0_0_3_4 : S4x8x128x128.Slices ![0, 0, 3, 4] S4x8x124x124
  slices_S4x8x128x128_S4x8x124x124_0_0_4_0 : S4x8x128x128.Slices ![0, 0, 4, 0] S4x8x124x124
  slices_S4x8x128x128_S4x8x124x124_0_0_4_1 : S4x8x128x128.Slices ![0, 0, 4, 1] S4x8x124x124
  slices_S4x8x128x128_S4x8x124x124_0_0_4_2 : S4x8x128x128.Slices ![0, 0, 4, 2] S4x8x124x124
  slices_S4x8x128x128_S4x8x124x124_0_0_4_3 : S4x8x128x128.Slices ![0, 0, 4, 3] S4x8x124x124
  slices_S4x8x128x128_S4x8x124x124_0_0_4_4 : S4x8x128x128.Slices ![0, 0, 4, 4] S4x8x124x124
  bcast_S4x8x124x124_S4x8x1x124x124_0_1_3_4 : S4x8x124x124.BroadcastsInDim S4x8x1x124x124 (![0, 1, 3, 4] : Fin 4 → Fin S4x8x1x124x124.rank)
  concatenates_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x16x124x124_d2 : Shape.Concatenates [S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124] S4x8x16x124x124 2
  concatenates_S4x8x1x124x124_S4x8x1x124x124_S4x8x1x124x124_S4x8x1x124x124_S4x8x1x124x124_S4x8x1x124x124_S4x8x1x124x124_S4x8x1x124x124_S4x8x1x124x124_S4x8x9x124x124_d2 : Shape.Concatenates [S4x8x1x124x124, S4x8x1x124x124, S4x8x1x124x124, S4x8x1x124x124, S4x8x1x124x124, S4x8x1x124x124, S4x8x1x124x124, S4x8x1x124x124, S4x8x1x124x124] S4x8x9x124x124 2
  concatenates_S4x8x16x124x124_S4x8x9x124x124_S4x8x25x124x124_d2 : Shape.Concatenates [S4x8x16x124x124, S4x8x9x124x124] S4x8x25x124x124 2
  shapeCasts_S4x8x25x124x124_S4x200x15376 : S4x8x25x124x124.ShapeCasts S4x200x15376
  shapeCasts_S16x8x5x5_S16x200 : S16x8x5x5.ShapeCasts S16x200
  bcast_S16x200_S1x16x200x1_1_2 : S16x200.BroadcastsInDim S1x16x200x1 (![1, 2] : Fin 2 → Fin S1x16x200x1.rank)
  bcast_S4x200x15376_S4x1x200x15376_0_2_3 : S4x200x15376.BroadcastsInDim S4x1x200x15376 (![0, 2, 3] : Fin 3 → Fin S4x1x200x15376.rank)
  bcast_S1x16x200x1_S4x16x200x15376_0_1_2_3 : S1x16x200x1.BroadcastsInDim S4x16x200x15376 (![0, 1, 2, 3] : Fin 4 → Fin S4x16x200x15376.rank)
  bcast_S4x1x200x15376_S4x16x200x15376_0_1_2_3 : S4x1x200x15376.BroadcastsInDim S4x16x200x15376 (![0, 1, 2, 3] : Fin 4 → Fin S4x16x200x15376.rank)
  reducesTo_S4x16x200x15376_S4x16x15376_d2 : S4x16x200x15376.ReducesTo [2] S4x16x15376
  h_S_ : 0 < S_.numel
  shapeCasts_S4x16x15376_S4x16x124x124 : S4x16x15376.ShapeCasts S4x16x124x124

variable [Facts₀]

class Facts : Prop extends Facts₀ where

variable [Facts]
-- ==== Proof.TropSpec.lean ====
/-
  The max-plus ("tropical") convolution, as a function of an image block and a weight table.

  For one image block `x0` of 8 channels of 128 × 128 entries and a table `x1` of 200 rows of 16 weights, output
  channel `o` at position `(y, x)` is the maximum over the 200 taps `r` of
  `x0[r mod 8, y + r / 40, x + (r / 8) mod 5] + x1[r, o]`: tap `r = (5 i + j) · 8 + c` adds the weight of channel `c` at
  kernel offset `(i, j)` to the image entry `i` rows down and `j` columns right, positions wrapping around the
  128 rows and columns (the wrap is never met by the 124 × 124 positions the convolution keeps). The maximum of no
  terms is -∞, the least extended real.
-/
import Idealize.ShloMosaic.PureOps.Ideal
import Idealize.ShloMosaic.Lib.ValueIdx

noncomputable section

namespace Cert.TropConv

open Idealize.ShloMosaic Idealize.ShloMosaic.ValueIdx

/-- Position `y + i` on a circle of 128 positions. -/
def fwd (i : ℕ) (y : Fin 128) : Fin 128 := ⟨(y.val + i) % 128, Nat.mod_lt _ (by norm_num)⟩

/-- Tap `r` of the 200: the image entry it reads plus its weight (-∞ for an `r` that names no tap). -/
def tap (x0 : (⟨4, ![1, 8, 128, 128]⟩ : Shape).Idx → EReal) (x1 : (⟨2, ![200, 16]⟩ : Shape).Idx → EReal)
    (o : Fin 16) (y x : Fin 128) (r : ℕ) : EReal :=
  if h : r < 200 then
    x0 (ix4 (0 : Fin 1) ⟨r % 8, Nat.mod_lt _ (by norm_num)⟩ (fwd (r / 40) y) (fwd (r / 8 % 5) x)) + x1 (ix2 ⟨r, h⟩ o)
  else ⊥

/-- The block's value at `(o, y, x)`: the maximum of the 200 taps. -/
def blockMax (x0 : (⟨4, ![1, 8, 128, 128]⟩ : Shape).Idx → EReal) (x1 : (⟨2, ![200, 16]⟩ : Shape).Idx → EReal)
    (o : Fin 16) (y x : Fin 128) : EReal :=
  (Finset.range 200).sup (tap x0 x1 o y x)

/-- Position `y + i` of a kept position `y < 124` (for `i ≤ 4` no wrap is met). -/
def shift (i : ℕ) (y : Fin 124) : Fin 128 := ⟨(y.val + i) % 128, Nat.mod_lt _ (by norm_num)⟩

/-- Kernel offset `i` of 5, mirrored: the flip of a true convolution. -/
def flip (i : ℕ) : Fin 5 := ⟨4 - i % 5, by omega⟩

/-- The convolution: output channel `o` of batch entry `b` at the kept position `(y, x)` is the supremum, over the 25
    kernel offsets `q = 5 i + j` and the 8 input channels `c`, of the image entry `i` rows down and `j` columns right plus
    the mirrored kernel's weight. -/
def conv (img : (⟨4, ![4, 8, 128, 128]⟩ : Shape).Idx → EReal) (ker : (⟨4, ![16, 8, 5, 5]⟩ : Shape).Idx → EReal)
    (b : Fin 4) (o : Fin 16) (y x : Fin 124) : EReal :=
  ⨆ p : Fin 25 × Fin 8, img (ix4 b p.2 (shift (p.1.val / 5) y) (shift (p.1.val % 5) x))
    + ker (ix4 o p.2 (flip (p.1.val / 5)) (flip (p.1.val % 5)))

/-- An array of kernel shape mirrored along its two spatial axes, read at an index. -/
theorem flip_apply {α : Type} (x1 : (⟨4, ![16, 8, 5, 5]⟩ : Shape).Idx → α) (o : Fin 16) (c : Fin 8) (i j : Fin 5) :
    Host.reverse [2, 3] x1 (ix4 o c i j) = x1 (ix4 o c (flip i.val) (flip j.val)) := by
  unfold Host.reverse
  refine congrArg x1 (funext fun a => ?_)
  have hi := i.isLt; have hj := j.isLt
  match a with
  | ⟨0, _⟩ => rfl
  | ⟨1, _⟩ => rfl
  | ⟨2, _⟩ => apply Fin.ext; show 5 - (i.val + 1) = 4 - i.val % 5; omega
  | ⟨3, _⟩ => apply Fin.ext; show 5 - (j.val + 1) = 4 - j.val % 5; omega

/-- A supremum over `Fin (m · n)` is the supremum over the pairs `(a, b)`, read at `b + n · a`. -/
theorem iSup_fin_mul (m n : ℕ) (g : ℕ → EReal) :
    (⨆ k : Fin (m * n), g k.val) = ⨆ p : Fin m × Fin n, g (p.2.val + n * p.1.val) :=
  (finProdFinEquiv.iSup_comp (g := fun k : Fin (m * n) => g k.val)).symm

/-- A maximum over the first `n + 1` naturals: the maximum over the first `n`, raised by the last term. -/
theorem sup_range_succ (g : ℕ → EReal) (n : ℕ) :
    (Finset.range (n + 1)).sup g = max ((Finset.range n).sup g) (g n) := by
  rw [Finset.range_add_one, Finset.sup_insert, max_comm]

/-- A maximum over the first `n` naturals is the supremum over `Fin n`. -/
theorem sup_range_eq_iSup (g : ℕ → EReal) (n : ℕ) : (Finset.range n).sup g = ⨆ k : Fin n, g k.val := by
  rw [Finset.sup_eq_iSup]
  refine le_antisymm (iSup₂_le fun a ha => ?_) (iSup_le fun k => ?_)
  · exact le_iSup (fun k : Fin n => g k.val) ⟨a, Finset.mem_range.1 ha⟩
  · exact le_iSup₂ (f := fun a (_ : a ∈ Finset.range n) => g a) k.val (Finset.mem_range.2 k.isLt)

end Cert.TropConv

end
-- ==== Proof.BodyOps.lean ====
/-
  The layout operations of the kernel's body, read at an index.

  Every one of the 200 taps is built the same way: one channel of a rotated copy of the image block is cut out,
  recast and spread over the 16 output channels; one row of an 8-row band of the weight table is cut out, recast
  into a column and spread over the 128 × 128 positions. Read at `(o, y, x)` the first is the rotated image at
  `(c, y, x)` and the second the table at row `r0 + c`, column `o`. A rotation by `s` along an axis of extent 128
  reads position `p + 128 - s` around the circle.
-/
import proofs.«154183_j61211873902638_2_alg».proof.KernelIdeal
import proofs.«154183_j61211873902638_2_alg».proof.Proof.TropSpec
import Idealize.ShloMosaic.Lib.Pipeline.Value
import Idealize.ShloMosaic.Lib.KernelVsHost
import Idealize.ShloMosaic.Lib.ValueLayout

namespace Cert.KernelIdeal.Body

open Idealize.ShloMosaic Idealize.ShloMosaic.ValueIdx Cert.KernelIdeal Cert.TropConv

variable {α : Type}

/-- A one-channel cut at channel `c` of 8 channels has `c < 8`. -/
theorem channel_lt {c : ℕ} (h1 : S8x128x128.Slices ![c, 0, 0] S1x128x128) : c < 8 := by
  have a := h1.2 0; simp at a; omega

/-- Row `c` of the 8-row band starting at row `r0` of the 200-row table is row `r0 + c < 200`. -/
theorem row_lt {r0 c : ℕ} (h0 : S200x16.Slices ![r0, 0] S8x16) (h1 : S8x16.Slices ![c, 0] S1x16) : r0 + c < 200 := by
  have a := h0.2 0; have b := h1.2 0; simp at a b; omega

/-- One channel of an image-shaped value, spread over the output channels. -/
theorem patch_apply (c : ℕ) (P : S8x128x128.Idx → α) (h1 : S8x128x128.Slices ![c, 0, 0] S1x128x128)
    (h2 : S1x128x128.ShapeCasts S128x128) (h3 : S128x128.ShapeCasts S1x128x128)
    (h4 : S1x128x128.Broadcasts S16x128x128) (o : Fin 16) (y x : Fin 128) :
    broadcastTo S16x128x128 (shapeCast S1x128x128 (shapeCast S128x128
        (extractStridedSlice S1x128x128 ![c, 0, 0] P h1) h2) h3) h4 (ix3 o y x)
      = P (ix3 ⟨c, channel_lt h1⟩ y x) := by
  rw [shapeCast_shapeCast]
  rw [broadcastTo_apply _ h4 (ix3 o y x) (ix3 (0 : Fin 1) y x)
    (fun a => by match a with | ⟨0, _⟩ => rfl | ⟨1, _⟩ => rfl | ⟨2, _⟩ => rfl)]
  exact extractStridedSlice_apply _ _ _ _ _
    (fun a => by match a with | ⟨0, _⟩ => rfl | ⟨1, _⟩ => exact (Nat.zero_add _).symm | ⟨2, _⟩ => exact (Nat.zero_add _).symm)

/-- One row of an 8-row band of the weight table, as a column spread over the positions. -/
theorem weight_apply (r0 c : ℕ) (W : S200x16.Idx → α) (h0 : S200x16.Slices ![r0, 0] S8x16)
    (h1 : S8x16.Slices ![c, 0] S1x16) (h2 : S1x16.ShapeCasts S16) (h3 : S16.ShapeCasts S16x1x1)
    (h4 : S16x1x1.Broadcasts S16x128x128) (o : Fin 16) (y x : Fin 128) :
    broadcastTo S16x128x128 (shapeCast S16x1x1 (shapeCast S16
        (extractStridedSlice S1x16 ![c, 0] (extractStridedSlice S8x16 ![r0, 0] W h0) h1) h2) h3) h4 (ix3 o y x)
      = W (ix2 ⟨r0 + c, row_lt h0 h1⟩ o) := by
  rw [broadcastTo_apply _ h4 (ix3 o y x) (ix3 o (0 : Fin 1) (0 : Fin 1))
    (fun a => by match a with | ⟨0, _⟩ => rfl | ⟨1, _⟩ => rfl | ⟨2, _⟩ => rfl)]
  rw [shapeCast_apply _ h3 (ix3 o (0 : Fin 1) (0 : Fin 1)) (ix1 o)
    (by rw [Shape.rowMajor_val_one, Shape.rowMajor_val_three]; show o.val = (o.val * 1 + 0) * 1 + 0; omega)]
  rw [shapeCast_1a_a_apply]
  rw [extractStridedSlice_apply _ _ h1 (ix2 (0 : Fin 1) o) (ix2 ⟨c, by have b := h1.2 0; simp at b; omega⟩ o)
    (fun a => by match a with | ⟨0, _⟩ => rfl | ⟨1, _⟩ => exact (Nat.zero_add _).symm)]
  exact extractStridedSlice_apply _ _ h0 _ _
    (fun a => by match a with | ⟨0, _⟩ => rfl | ⟨1, _⟩ => exact (Nat.zero_add _).symm)

/-- A rotation along the rows. -/
theorem rotate_rows_apply (s : BitVec 32) (P : S8x128x128.Idx → α) (h : S8x128x128.Rotates 1 none)
    (c : Fin 8) (y x : Fin 128) :
    dynamicRotate 1 s (@none (ℕ × Fin 3)) P h (ix3 c y x) = P (ix3 c (fwd ((128 - s.toNat % 128) % 128) y) x) :=
  dynamicRotate_apply 1 s P h _ _
    (fun b => by
      match b with
      | ⟨0, _⟩ => rfl
      | ⟨1, _⟩ =>
        show (y.val + (128 - s.toNat % 128) % 128) % 128 = (y.val + 128 - s.toNat % 128) % 128
        have := Nat.mod_lt s.toNat (by norm_num : 128 > 0)
        omega
      | ⟨2, _⟩ => rfl)

/-- A rotation along the columns. -/
theorem rotate_cols_apply (s : BitVec 32) (P : S8x128x128.Idx → α) (h : S8x128x128.Rotates 2 none)
    (c : Fin 8) (y x : Fin 128) :
    dynamicRotate 2 s (@none (ℕ × Fin 3)) P h (ix3 c y x) = P (ix3 c y (fwd ((128 - s.toNat % 128) % 128) x)) :=
  dynamicRotate_apply 2 s P h _ _
    (fun b => by
      match b with
      | ⟨0, _⟩ => rfl
      | ⟨1, _⟩ => rfl
      | ⟨2, _⟩ =>
        show (x.val + (128 - s.toNat % 128) % 128) % 128 = (x.val + 128 - s.toNat % 128) % 128
        have := Nat.mod_lt s.toNat (by norm_num : 128 > 0)
        omega)

/-- The f32 pattern of -∞ is the least extended real. -/
theorem negInf : (FloatOps.ofBits FTy.f32 4286578688#32 : Idealize.ShloMosaic.Ideal .f32) = (⊥ : EReal) := by
  show Ideal.ofBits .f32 0xFF800000#32 = ⊥
  simp [Ideal.ofBits, Ideal.ieee]

/-- The all-zero offsets of a whole-block access, of rank 4 and of rank 2. -/
theorem hz4 : (![0, 0, 0, 0] : Fin 4 → ℕ) = fun _ => 0 := by funext a; fin_cases a <;> rfl
theorem hz2 : (![0, 0] : Fin 2 → ℕ) = fun _ => 0 := by funext a; fin_cases a <;> rfl

end Cert.KernelIdeal.Body
-- ==== Proof.KernelBody.lean ====
/-
  What the kernel's body leaves in its output block, read at an index.

  The body starts a running maximum at -∞ and, for each of the 5 × 5 kernel offsets `(i, j)` and each of the 8 input
  channels `c`, raises it by the image block rotated `i` rows up and `j` columns left, channel `c`, plus row
  `(5 i + j) · 8 + c` of the weight table. Read at `(o, y, x)` this is the maximum of the 200 taps of `TropConv.tap`,
  in the order the body takes them: a left-nested maximum, which is how a maximum over the first 200 naturals
  unfolds.
-/
import proofs.«154183_j61211873902638_2_alg».proof.Proof.Gen.KernelIdeal.Frame
import proofs.«154183_j61211873902638_2_alg».proof.Proof.BodyOps

noncomputable section

namespace Cert.KernelIdeal.Body

open Idealize.ShloMosaic Idealize.ShloMosaic.ValueIdx Cert.KernelIdeal Cert.KernelIdeal.Gen Cert.TropConv

set_option maxHeartbeats 8000000 in
/-- The output block after the body, at `(o, y, x)`: the maximum of the 200 taps. -/
theorem out_apply (x0 : Vec Idealize.ShloMosaic.Ideal S1x8x128x128 .f32) (x1 : Vec Idealize.ShloMosaic.Ideal S200x16 .f32)
    (o : Fin 16) (y x : Fin 128) :
    out0_2 (F := Idealize.ShloMosaic.Ideal) x0 x1 (ix4 (0 : Fin 1) o y x) = blockMax x0 x1 o y x := by
  unfold out0_2
  rw [View.canon_unit_zero hz4]
  simp only [
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138,
    maximumf_apply, addf_apply, broadcast_apply, patch_apply, weight_apply, rotate_rows_apply, rotate_cols_apply,
    shapeCast_abc_1abc_apply, shapeCast_1abc_abc_apply, shapeCast_self, negInf,
    Nat.reduceAdd, Nat.reduceSub, Nat.reduceMod, BitVec.toNat_ofNat, Nat.reducePow,
    View.ld_unit_zero (S := S1x8x128x128) hz4, View.ld_unit_zero (S := S200x16) hz2]
  simp only [blockMax, TropConv.sup_range_succ, Finset.range_zero, Finset.sup_empty, tap, Nat.reduceLT, dite_true,
    Nat.reduceMod, Nat.reduceDiv]

end Cert.KernelIdeal.Body

end
-- ==== Proof.KernelArray.lean ====
/-
  From the blocks to the whole output array, and through the crop that follows the kernel.

  The grid has one point per batch entry `b`; point `b` reads image block `b` (8 × 128 × 128) and the whole weight
  table, and writes output block `b` (16 × 128 × 128). The four output blocks tile the output array, so after the run the
  array holds, at `(b, o, y, x)`, what the body leaves at `(o, y, x)` of its block when run on image block `b`. The host
  then keeps the positions `y, x < 124`.
-/
import proofs.«154183_j61211873902638_2_alg».proof.Proof.Gen.KernelIdeal.Frame
import proofs.«154183_j61211873902638_2_alg».proof.Proof.KernelBody
import Idealize.ShloMosaic.Lib.Pipeline.Value
import Idealize.ShloMosaic.Lib.StableHlo.Run

set_option maxRecDepth 16384

noncomputable section

namespace Cert.KernelIdeal.KArray

open Idealize.ShloMosaic Idealize.ShloMosaic.TcCoe Idealize.ShloMosaic.ValueIdx Idealize.SL.Sem
open Cert.KernelIdeal Cert.KernelIdeal.Gen Cert.TropConv
open Idealize.ShloMosaic.Pipeline (Dat)

local notation "𝕀" => Idealize.ShloMosaic.Ideal

variable (m : (ℓ : Loc nD τ sig) → Buf (Elt 𝕀) ℓ) (ρ : Dev nD → PrngReg)

/-- The grid point of batch entry `b`. -/
def pt (b : Fin 4) : Fin cfg0.N := ⟨b.val, b.isLt⟩

/-- The output array after the run: at `(b, o, y, x)` the body's result on the blocks of point `b`, at `(o, y, x)`. -/
def outArr (c : Dev nD) : S4x16x128x128.Idx → 𝕀 .f32 := fun j =>
  out0_2 (F := 𝕀) (iblk m c 0 (pt (j 0))) (iblk m c 1 (pt (j 0))) (ix4 (0 : Fin 1) (j 1) (j 2) (j 3))

/-- The printed index maps over the grid: the image and output blocks of point `t` are block `t` along the batch axis
    and block 0 along the others; the weight table's block is always the whole table. -/
theorem idx_facts : ∀ t : Fin cfg0.N,
    win0_2.index t (0 : Fin 4) = t.val ∧ win0_2.index t (1 : Fin 4) = 0 ∧ win0_2.index t (2 : Fin 4) = 0
    ∧ win0_2.index t (3 : Fin 4) = 0
    ∧ win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0 :=
  (by decide +kernel : ∀ t : Fin grid0.N, _)

/-- The grid has four points. -/
theorem lt4 (t : Fin cfg0.N) : t.val < 4 := t.isLt

/-- The batch entry of grid point `t`. -/
def bOf (t : Fin cfg0.N) : Fin 4 := ⟨t.val, lt4 t⟩

/-- Reading an array through the output block of point `t` is reading it at the block's embedded index. -/
theorem read_at (t : Fin cfg0.N) (G : S4x16x128x128.Idx → 𝕀 .f32) (j : S1x16x128x128.Idx) :
    ((cfg0.win 2).blk t).view.read (Elt 𝕀) G j = G (((cfg0.win 2).blk t).view.emb j) := rfl

/-- The output window is not cut: what is written back is the whole staging block. -/
theorem cut_whole (t : Fin cfg0.N) (X : ((cfg0.win 2).xblock (cfg0.grid.coords t)).Idx → Elt 𝕀 (cfg0.win 2).elt) :
    (cfg0.win 2).cut (grid0.coords t) X = X := rfl

/-- `outArr` at an index of point `t`'s block. -/
theorem outArr_at (c : Dev nD) (t : Fin cfg0.N) (X0 : Vec 𝕀 S1x8x128x128 .f32) (X1 : Vec 𝕀 S200x16 .f32)
    (h0 : iblk m c 0 t = X0) (h1 : iblk m c 1 t = X1) (o : Fin 16) (y x : Fin 128) :
    outArr m c (ix4 (bOf t) o y x) = out0_2 (F := 𝕀) X0 X1 (ix4 (0 : Fin 1) o y x) := by
  subst h0 h1; rfl

/-- Point `t` writes back block `t` of `outArr`. -/
theorem flushed_eq (c : Dev nD) (t : Fin cfg0.N) :
    (dats m 0 c).flushed 2 t = ((cfg0.win 2).blk t).view.read (Elt 𝕀) (outArr m c) := by
  show (cfg0.win 2).cut (grid0.coords t) ((dats m 0 c).after 2 t) = _
  rw [cut_whole, after0_2]
  obtain ⟨e0, e1, e2, e3, -⟩ := idx_facts t
  funext j
  have hj0 : (j 0).val < 1 := (j 0).isLt
  have hemb : ((cfg0.win 2).blk t).view.emb j = ix4 (bOf t) (j 1) (j 2) (j 3) := by
    funext a; apply Fin.ext
    match a with
    | ⟨0, _⟩ => show win0_2.index t (0 : Fin 4) * 1 + 1 * (j 0).val = t.val; omega
    | ⟨1, _⟩ => show win0_2.index t (1 : Fin 4) * 16 + 1 * (j 1).val = (j 1).val; omega
    | ⟨2, _⟩ => show win0_2.index t (2 : Fin 4) * 128 + 1 * (j 2).val = (j 2).val; omega
    | ⟨3, _⟩ => show win0_2.index t (3 : Fin 4) * 128 + 1 * (j 3).val = (j 3).val; omega
  have hj : j = ix4 (0 : Fin 1) (j 1) (j 2) (j 3) := by
    funext a; apply Fin.ext
    match a with
    | ⟨0, _⟩ => show (j 0).val = 0; omega
    | ⟨1, _⟩ => rfl
    | ⟨2, _⟩ => rfl
    | ⟨3, _⟩ => rfl
  calc out0_2 (iblk m c 0 t) (iblk m c 1 t) j
      = out0_2 (iblk m c 0 t) (iblk m c 1 t) (ix4 (0 : Fin 1) (j 1) (j 2) (j 3)) := congrArg _ hj
    _ = outArr m c (ix4 (bOf t) (j 1) (j 2) (j 3)) := (outArr_at m c t _ _ rfl rfl (j 1) (j 2) (j 3)).symm
    _ = outArr m c (((cfg0.win 2).blk t).view.emb j) := (congrArg (outArr m c) hemb).symm
    _ = _ := (read_at t (outArr m c) j).symm

/-- An index of the output array is in point `t`'s block iff each coordinate is in the block's range on its axis. -/
theorem mem_blk (t : Fin cfg0.N) (i : S4x16x128x128.Idx) :
    i ∈ ((cfg0.win 2).blk t).view.set ↔ ∀ a : Fin 4, win0_2.index t a * S1x16x128x128.size a ≤ (i a).val
      ∧ (i a).val < win0_2.index t a * S1x16x128x128.size a + S1x16x128x128.size a := by
  show i ∈ ((View.whole main_v3).slice (win0_2.rect t)).set ↔ _
  rw [View.set_slice_whole, Rect.mem_set_unit]
  exact Iff.rfl

/-- Every index of the output array is in the block of the point of its batch entry. -/
theorem cover (i : S4x16x128x128.Idx) :
    ∃ t : Fin cfg0.N, (cfg0.win 2).flush t = true ∧ i ∈ ((cfg0.win 2).blk t).view.set := by
  refine ⟨pt (i 0), flush0_2 _, ?_⟩
  obtain ⟨e0, e1, e2, e3, -⟩ := idx_facts (pt (i 0))
  have ept : (pt (i 0)).val = (i 0).val := rfl
  have h1 : (i 1).val < 16 := (i 1).isLt
  have h2 : (i 2).val < 128 := (i 2).isLt
  have h3 : (i 3).val < 128 := (i 3).isLt
  rw [mem_blk]
  intro a
  match a with
  | ⟨0, _⟩ => show win0_2.index (pt (i 0)) (0 : Fin 4) * 1 ≤ (i 0).val ∧ (i 0).val < win0_2.index (pt (i 0)) (0 : Fin 4) * 1 + 1; omega
  | ⟨1, _⟩ => show win0_2.index (pt (i 0)) (1 : Fin 4) * 16 ≤ (i 1).val ∧ (i 1).val < win0_2.index (pt (i 0)) (1 : Fin 4) * 16 + 16; omega
  | ⟨2, _⟩ => show win0_2.index (pt (i 0)) (2 : Fin 4) * 128 ≤ (i 2).val ∧ (i 2).val < win0_2.index (pt (i 0)) (2 : Fin 4) * 128 + 128; omega
  | ⟨3, _⟩ => show win0_2.index (pt (i 0)) (3 : Fin 4) * 128 ≤ (i 3).val ∧ (i 3).val < win0_2.index (pt (i 0)) (3 : Fin 4) * 128 + 128; omega

/-- The output array after the run. -/
theorem final (c : Dev nD) : (dats m 0 c).arrAt 2 cfg0.N = outArr m c :=
  (dats m 0 c).arrAt_eq_of_cover 2 (outArr m c) (fun t _ => flushed_eq m c t) (cover)

/-- The result after the crop: the output array at the kept positions. -/
theorem tail_eq (c : Dev nD) :
    Pipeline.afterTail₀ cfgs (dats m) 0 (V0 m) [hostOps1] c main_v4
      = extractStridedSlice S4x16x124x124 ![0, 0, 0, 0] (outArr m c) slices_S4x16x128x128_S4x16x124x124_0_0_0_0 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.tc.devRef main_v3) = outArr m c :=
    (Pipeline.withArrays_arr spec0 launch0.win.arr_inj c (V0 m c)
      (fun w => (dats m 0 c).arrAt w (cfgs 0).N) 2).trans (final m c)
  exact congrArg (fun X => extractStridedSlice S4x16x124x124 ![0, 0, 0, 0] X slices_S4x16x128x128_S4x16x124x124_0_0_0_0) e

end Cert.KernelIdeal.KArray

end
-- ==== Proof.KernelValue.lean ====
/-
  The kernel's result as the convolution of its arguments.

  Point `b`'s image block is batch entry `b` of the image; the weight table is the mirrored kernel laid out with row
  `(5 i + j) · 8 + c`, column `o`, holding the mirrored kernel's weight at `(o, c, i, j)`. So tap `r = c + 8 q` of the body is
  the image at `(b, c, y + q / 5, x + q mod 5)` plus the mirrored kernel at `(o, c, q / 5, q mod 5)`, and the maximum of the
  200 taps is the convolution.
-/
import proofs.«154183_j61211873902638_2_alg».proof.Proof.KernelArray

set_option maxRecDepth 16384

noncomputable section

namespace Cert.KernelIdeal.KArray

open Idealize.ShloMosaic Idealize.ShloMosaic.TcCoe Idealize.ShloMosaic.ValueIdx Idealize.SL.Sem
open Cert.KernelIdeal Cert.KernelIdeal.Gen Cert.TropConv
open Idealize.ShloMosaic.Pipeline (Dat)

local notation "𝕀" => Idealize.ShloMosaic.Ideal

variable (m : (ℓ : Loc nD τ sig) → Buf (Elt 𝕀) ℓ) (ρ : Dev nD → PrngReg)

/-- The image as launched, and the kernel as launched. -/
abbrev img (c : Dev nD) : S4x8x128x128.Idx → 𝕀 .f32 := m ((c : Thread nD τ).loc main_arg0)
abbrev ker (c : Dev nD) : S16x8x5x5.Idx → 𝕀 .f32 := m ((c : Thread nD τ).loc main_arg1)

/-- The weight table the region finds: the kernel mirrored, its axes reordered to (i, j, c, o), recast to 200 rows. -/
theorem table_eq (c : Dev nD) :
    (V m c main_v2 : S200x16.Idx → 𝕀 .f32)
      = shapeCast S200x16 (transpose S5x5x8x16 [2, 3, 1, 0] (Host.reverse [2, 3] (ker m c))
          transposes_S16x8x5x5_S5x5x8x16_2_3_1_0) shapeCasts_S5x5x8x16_S200x16 := by
  show StableHlo.after hostOps0 (fun b => m (c, b)) (Proc.devRef .tc main_v2) = _
  after_results
  rfl

/-- The table at row `r`, column `o`. -/
theorem table_apply (c : Dev nD) (r : Fin 200) (o : Fin 16) :
    (V m c main_v2 : S200x16.Idx → 𝕀 .f32) (ix2 r o)
      = ker m c (ix4 o (⟨r.val % 8, Nat.mod_lt _ (by norm_num)⟩ : Fin 8) (flip (r.val / 40)) (flip (r.val / 8 % 5))) := by
  have hr := r.isLt
  rw [table_eq]
  rw [shapeCast_apply _ shapeCasts_S5x5x8x16_S200x16 (ix2 r o)
    (ix4 (⟨r.val / 40, by omega⟩ : Fin 5) (⟨r.val / 8 % 5, Nat.mod_lt _ (by norm_num)⟩ : Fin 5)
      (⟨r.val % 8, Nat.mod_lt _ (by norm_num)⟩ : Fin 8) o)
    (by rw [Shape.rowMajor_val_four, Shape.rowMajor_val_two]
        show ((r.val / 40 * 5 + r.val / 8 % 5) * 8 + r.val % 8) * 16 + o.val = r.val * 16 + o.val
        omega)]
  rw [transpose_apply [2, 3, 1, 0] _ transposes_S16x8x5x5_S5x5x8x16_2_3_1_0 _
    (ix4 o (⟨r.val % 8, Nat.mod_lt _ (by norm_num)⟩ : Fin 8) (⟨r.val / 40, by omega⟩ : Fin 5)
      (⟨r.val / 8 % 5, Nat.mod_lt _ (by norm_num)⟩ : Fin 5))
    (fun a => by match a with | ⟨0, _⟩ => rfl | ⟨1, _⟩ => rfl | ⟨2, _⟩ => rfl | ⟨3, _⟩ => rfl)]
  exact flip_apply (ker m c) o _ _ _

/-- Reading an array through the image block of point `t`, and through the weight table's block. -/
theorem read0_at (t : Fin cfg0.N) (G : S4x8x128x128.Idx → 𝕀 .f32) (j : S1x8x128x128.Idx) :
    ((cfg0.win 0).blk t).view.read (Elt 𝕀) G j = G (((cfg0.win 0).blk t).view.emb j) := rfl
theorem read1_at (t : Fin cfg0.N) (G : S200x16.Idx → 𝕀 .f32) (j : S200x16.Idx) :
    ((cfg0.win 1).blk t).view.read (Elt 𝕀) G j = G (((cfg0.win 1).blk t).view.emb j) := rfl

/-- Point `t`'s image block is batch entry `t` of the image. -/
theorem iblk0_apply (c : Dev nD) (t : Fin cfg0.N) (cc : Fin 8) (yy xx : Fin 128) :
    iblk m c 0 t (ix4 (0 : Fin 1) cc yy xx) = img m c (ix4 (bOf t) cc yy xx) := by
  obtain ⟨-, -, -, -, e0, e1, e2, e3, -⟩ := idx_facts t
  unfold iblk
  rw [read0_at]
  show V m c main_arg0 _ = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 8 + 1 * cc.val = cc.val; omega
  | ⟨2, _⟩ => show win0_0.index t (2 : Fin 4) * 128 + 1 * yy.val = yy.val; omega
  | ⟨3, _⟩ => show win0_0.index t (3 : Fin 4) * 128 + 1 * xx.val = xx.val; omega

/-- Every point's weight block is the whole table. -/
theorem iblk1_apply (c : Dev nD) (t : Fin cfg0.N) (r : Fin 200) (o : Fin 16) :
    iblk m c 1 t (ix2 r o) = (V m c main_v2 : S200x16.Idx → 𝕀 .f32) (ix2 r o) := by
  obtain ⟨-, -, -, -, -, -, -, -, e0, e1⟩ := idx_facts t
  unfold iblk
  rw [read1_at]
  show V m c main_v2 _ = _
  refine congrArg _ (funext fun a => Fin.ext ?_)
  match a with
  | ⟨0, _⟩ => show win0_1.index t (0 : Fin 2) * 200 + 1 * r.val = r.val; omega
  | ⟨1, _⟩ => show win0_1.index t (1 : Fin 2) * 16 + 1 * o.val = o.val; omega

/-- A kept position as a position of the block. -/
def inBlock (y : Fin 124) : Fin 128 := ⟨y.val, by omega⟩

/-- Tap `c + 8 q` of point `t`'s body at a kept position: the convolution's term for offset `q` and channel `c`. -/
theorem tap_eq (c : Dev nD) (t : Fin cfg0.N) (o : Fin 16) (y x : Fin 124) (p : Fin 25 × Fin 8) :
    tap (iblk m c 0 t) (iblk m c 1 t) o (inBlock y) (inBlock x) (p.2.val + 8 * p.1.val)
      = img m c (ix4 (bOf t) p.2 (shift (p.1.val / 5) y) (shift (p.1.val % 5) x))
        + ker m c (ix4 o p.2 (flip (p.1.val / 5)) (flip (p.1.val % 5))) := by
  obtain ⟨q, cc⟩ := p
  have hq := q.isLt; have hc := cc.isLt; have hy := y.isLt; have hx := x.isLt
  have hr : cc.val + 8 * q.val < 200 := by omega
  unfold tap
  rw [dif_pos hr, iblk0_apply, iblk1_apply, table_apply]
  show img m c _ + ker m c _ = img m c _ + ker m c _
  congr 2
  · refine funext fun a => Fin.ext ?_
    match a with
    | ⟨0, _⟩ => rfl
    | ⟨1, _⟩ => show (cc.val + 8 * q.val) % 8 = cc.val; omega
    | ⟨2, _⟩ => show (y.val + (cc.val + 8 * q.val) / 40) % 128 = (y.val + q.val / 5) % 128; omega
    | ⟨3, _⟩ => show (x.val + (cc.val + 8 * q.val) / 8 % 5) % 128 = (x.val + q.val % 5) % 128; omega
  · refine funext fun a => Fin.ext ?_
    match a with
    | ⟨0, _⟩ => rfl
    | ⟨1, _⟩ => show (cc.val + 8 * q.val) % 8 = cc.val; omega
    | ⟨2, _⟩ => show 4 - (cc.val + 8 * q.val) / 40 % 5 = 4 - q.val / 5 % 5; omega
    | ⟨3, _⟩ => show 4 - (cc.val + 8 * q.val) / 8 % 5 % 5 = 4 - q.val % 5 % 5; omega

/-- The result after the crop, at `(b, o, y, x)`: the convolution of the image and the kernel. -/
theorem result_apply (c : Dev nD) (b : Fin 4) (o : Fin 16) (y x : Fin 124) :
    extractStridedSlice S4x16x124x124 ![0, 0, 0, 0] (outArr m c) slices_S4x16x128x128_S4x16x124x124_0_0_0_0 (ix4 b o y x)
      = conv (img m c) (ker m c) b o y x := by
  rw [extractStridedSlice_apply _ _ slices_S4x16x128x128_S4x16x124x124_0_0_0_0 (ix4 b o y x)
    (ix4 (bOf (pt b)) o (inBlock y) (inBlock x))
    (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm)]
  rw [outArr_at m c (pt b) _ _ rfl rfl, Body.out_apply]
  unfold blockMax conv
  rw [sup_range_eq_iSup]
  refine (iSup_fin_mul 25 8 _).trans (iSup_congr fun p => ?_)
  exact tap_eq m c (pt b) o y x p

/-- The run of the idealized kernel: every execution ends with the result at the convolution of the arguments, which
    end unchanged. -/
theorem run : θ_run defs (onTc (τ := τ) (main (F := 𝕀))) ⟨m, fun _ => 0, ρ⟩ fun r => ∀ c : Dev nD,
      r.2.mem ((c.tc : Thread nD τ).loc main_v4)
        = (fun i : S4x16x124x124.Idx => conv (img m c) (ker m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v4 (Pipeline.mem_restRefs_of main_v4 (by decide) (by decide))).trans (tail_eq m c)).trans
        (funext fun i => by rw [eq_ix4 i]; exact result_apply m c _ _ _ _),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.KArray

end
-- ==== Proof.RefPatches.lean ====
/-
  The reference's 25 shifted copies of the image, read at an index.

  The reference cuts, for each kernel offset `q = 5 i + j`, the 124 × 124 window of the image that starts `i` rows down
  and `j` columns right, and stacks the 25 windows along a new axis (sixteen of them, then nine, then the two stacks
  end to end). At `(b, c, q, y, x)` the stack holds the image at `(b, c, y + i, x + j)`.
-/
import proofs.«154183_j61211873902638_2_alg».proof.Proof.Gen.ReferenceIdeal.Read
import proofs.«154183_j61211873902638_2_alg».proof.Proof.TropSpec
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Read Cert.TropConv

variable {F : FTy → Type} [FloatOps F]

/-- A stack of one-window pieces along axis 2, read at entry `k` of that axis: piece `k`, at its one entry. -/
theorem unit_piece_apply {α : Type} {N : ℕ} (xs : List ((s : Shape) × (s.Idx → α)))
    (h : Shape.Concatenates (xs.map (·.1)) ⟨5, ![4, 8, N, 124, 124]⟩ 2) (b : Fin 4) (c : Fin 8) (k : ℕ) (hkN : k < N)
    (y x : Fin 124) (hk : k < xs.length) (x₁ : S4x8x1x124x124.Idx → α) (hxk : xs[k] = ⟨S4x8x1x124x124, x₁⟩)
    (hpre : (((xs.take k).map (·.1)).map fun s =>
      if h : s.rank = 5 then s.size ((2 : Fin 5).cast h.symm) else 0).sum = k) :
    concatenate ⟨5, ![4, 8, N, 124, 124]⟩ 2 xs h (ix5 b c ⟨k, hkN⟩ y x) = x₁ (ix5 b c (0 : Fin 1) y x) :=
  concatenate_apply_piece 2 xs h _ k hk S4x8x1x124x124 x₁ hxk rfl k hpre _
    (fun a ha => by fin_cases a <;> first | rfl | exact absurd rfl ha) rfl

set_option maxHeartbeats 8000000 in
/-- The first sixteen windows. -/
theorem first16_apply (x0 : (⟨S4x8x128x128, .f32⟩ : BufTy).Contents (Elt F)) (b : Fin 4) (c : Fin 8) (q : Fin 16)
    (y x : Fin 124) :
    val_main_v51 (F := F) x0 (ix5 b c q y x) = x0 (ix4 b c (shift (q.val / 5) y) (shift (q.val % 5) x)) := by
  unfold val_main_v51
  obtain ⟨k, hk⟩ := q
  have hy := y.isLt
  have hx := x.isLt
  interval_cases k
  all_goals
    refine (unit_piece_apply _ _ b c _ _ y x (by simp only [List.length_cons, List.length_nil]; omega) _ rfl rfl).trans ?_
    simp only [val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply]
    refine congrArg x0 (funext fun a => Fin.ext ?_)
    match a with
    | ⟨0, _⟩ => rfl
    | ⟨1, _⟩ => rfl
    | ⟨2, _⟩ =>
      first
      | (show _ + y.val = (y.val + _) % 128; omega)
      | (show y.val = (y.val + _) % 128; omega)
    | ⟨3, _⟩ =>
      first
      | (show _ + x.val = (x.val + _) % 128; omega)
      | (show x.val = (x.val + _) % 128; omega)

set_option maxHeartbeats 8000000 in
/-- The last nine windows. -/
theorem last9_apply (x0 : (⟨S4x8x128x128, .f32⟩ : BufTy).Contents (Elt F)) (b : Fin 4) (c : Fin 8) (q : Fin 9)
    (y x : Fin 124) :
    val_main_v52 (F := F) x0 (ix5 b c q y x)
      = x0 (ix4 b c (shift ((16 + q.val) / 5) y) (shift ((16 + q.val) % 5) x)) := by
  unfold val_main_v52
  obtain ⟨k, hk⟩ := q
  have hy := y.isLt
  have hx := x.isLt
  interval_cases k
  all_goals
    refine (unit_piece_apply _ _ b c _ _ y x (by simp only [List.length_cons, List.length_nil]; omega) _ rfl rfl).trans ?_
    simp only [val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply]
    refine congrArg x0 (funext fun a => Fin.ext ?_)
    match a with
    | ⟨0, _⟩ => rfl
    | ⟨1, _⟩ => rfl
    | ⟨2, _⟩ =>
      first
      | (show _ + y.val = (y.val + _) % 128; omega)
      | (show y.val = (y.val + _) % 128; omega)
    | ⟨3, _⟩ =>
      first
      | (show _ + x.val = (x.val + _) % 128; omega)
      | (show x.val = (x.val + _) % 128; omega)

/-- The 25 windows stacked: entry `q` of the stack is the window that starts `q / 5` rows down and `q mod 5` columns right. -/
theorem patches_apply (x0 : (⟨S4x8x128x128, .f32⟩ : BufTy).Contents (Elt F)) (b : Fin 4) (c : Fin 8) (q : Fin 25)
    (y x : Fin 124) :
    val_main_v53 (F := F) x0 (ix5 b c q y x) = x0 (ix4 b c (shift (q.val / 5) y) (shift (q.val % 5) x)) := by
  unfold val_main_v53
  have hq := q.isLt
  by_cases h16 : q.val < 16
  · rw [concatenate_pair_apply_left (t := S4x8x25x124x124) (s₁ := S4x8x16x124x124) (s₂ := S4x8x9x124x124) 2 _ _ _
      (ix5 b c q y x) rfl (ix5 b c (⟨q.val, h16⟩ : Fin 16) y x : S4x8x16x124x124.Idx)
      (fun a => by match a with | ⟨0, _⟩ => rfl | ⟨1, _⟩ => rfl | ⟨2, _⟩ => rfl | ⟨3, _⟩ => rfl | ⟨4, _⟩ => rfl)]
    exact first16_apply x0 b c ⟨q.val, h16⟩ y x
  · rw [concatenate_pair_apply_right (t := S4x8x25x124x124) (s₁ := S4x8x16x124x124) (s₂ := S4x8x9x124x124) 2 _ _ _
      (ix5 b c q y x) rfl rfl (ix5 b c (⟨q.val - 16, by omega⟩ : Fin 9) y x : S4x8x9x124x124.Idx)
      (fun a ha => by
        match a with
        | ⟨0, _⟩ => rfl
        | ⟨1, _⟩ => rfl
        | ⟨2, _⟩ => exact absurd rfl ha
        | ⟨3, _⟩ => rfl
        | ⟨4, _⟩ => rfl)
      (by show q.val - 16 + 16 = q.val; omega)]
    rw [last9_apply x0 b c ⟨q.val - 16, by omega⟩ y x]
    have e : 16 + (q.val - 16) = q.val := by omega
    show x0 (ix4 b c (shift ((16 + (q.val - 16)) / 5) y) (shift ((16 + (q.val - 16)) % 5) x)) = _
    rw [e]

end Cert.ReferenceIdeal.RefValue

end
-- ==== Proof.LibFoldExtrema.lean ====
/-
  Maxima and minima of finitely many extended reals, read off the reductions that compute them.

  On the extended reals `maximumf` is `max` and the f32 pattern of -∞ is the bottom element, so a reduction with
  `maximumf` started from that pattern is the SUPREMUM of the entries it reduces: the fold of `max` from `⊥` over the
  finite set of source indices that drop to the result index, in any order. Dually a reduction with `minimumf` started
  from the pattern of +∞ is the INFIMUM of those entries. This holds for a vector reduction over any list of axes and
  for a one-operand host reduction alike; both are stated here over the set of indices `drop` sends to the result index.
-/
import Idealize.ShloMosaic.PureOps.Ideal.Laws

namespace Cert.FoldExtrema

open Idealize.ShloMosaic

/-- The f32 pattern of -∞ is the least extended real. -/
theorem ofBits_neg_inf : Ideal.ofBits .f32 0xFF800000#32 = (⊥ : EReal) := by simp [Ideal.ofBits, Ideal.ieee]

/-- The f32 pattern of +∞ is the greatest extended real. -/
theorem ofBits_pos_inf : Ideal.ofBits .f32 0x7F800000#32 = (⊤ : EReal) := by simp [Ideal.ofBits, Ideal.ieee]

/-- Folding `max` from the least element over a finite set is taking the supremum over it. -/
theorem fold_max_bot {ι : Type} (s : Finset ι) (f : ι → EReal) : s.fold max ⊥ f = s.sup f := rfl

/-- Folding `min` from the greatest element over a finite set is taking the infimum over it. -/
theorem fold_min_top {ι : Type} (s : Finset ι) (f : ι → EReal) : s.fold min ⊤ f = s.inf f := rfl

variable {s t : Shape} {axes : List (Fin s.rank)}

/-- A vector `maximumf` reduction from -∞, on the extended reals: at `j` the supremum of the source over the indices
    that drop to `j`. -/
theorem multiReduction_max_eq_sup (src : FVec Ideal s .f32) (h : s.Reduces axes t) (hφ : FKind.Formats .f32)
    (hacc : (0xFF800000#32 : BitVec 32) = FKind.maximumf.neutral .f32 hφ) (j : t.Idx) :
    multiReduction .maximumf axes t src 0xFF800000#32 h hφ hacc j
      = (Finset.univ.filter fun i => h.drop i = j).sup src := by
  rw [multiReduction_maximumf_eq_fold]
  show Finset.fold max (Ideal.ofBits .f32 0xFF800000#32) src _ = _
  rw [ofBits_neg_inf, fold_max_bot]

/-- A vector `minimumf` reduction from +∞, on the extended reals: at `j` the infimum of the source over the indices
    that drop to `j`. -/
theorem multiReduction_min_eq_inf (src : FVec Ideal s .f32) (h : s.Reduces axes t) (hφ : FKind.Formats .f32)
    (hacc : (0x7F800000#32 : BitVec 32) = FKind.minimumf.neutral .f32 hφ) (j : t.Idx) :
    multiReduction .minimumf axes t src 0x7F800000#32 h hφ hacc j
      = (Finset.univ.filter fun i => h.drop i = j).inf src := by
  rw [multiReduction_minimumf_eq_fold]
  show Finset.fold min (Ideal.ofBits .f32 0x7F800000#32) src _ = _
  rw [ofBits_pos_inf, fold_min_top]

/-- A host reduction with `maximumf` whose initial value is the constant -∞, on the extended reals: at `j` the
    supremum of the operand over the indices that drop to `j`. -/
theorem hostReduce_max_eq_sup {u : Shape} (x : s.Idx → Ideal .f32) (h : s.ReducesTo axes t) (hu : 0 < u.numel)
    (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold max (Ideal.ofBits .f32 0xFF800000#32) x _ = _
  rw [ofBits_neg_inf, fold_max_bot]

/-- A host reduction with `minimumf` whose initial value is the constant +∞, on the extended reals: at `j` the
    infimum of the operand over the indices that drop to `j`. -/
theorem hostReduce_min_eq_inf {u : Shape} (x : s.Idx → Ideal .f32) (h : s.ReducesTo axes t) (hu : 0 < u.numel)
    (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold min (Ideal.ofBits .f32 0x7F800000#32) x _ = _
  rw [ofBits_pos_inf, fold_min_top]

end Cert.FoldExtrema
-- ==== Proof.RefReduce.lean ====
/-
  The reference's maximum over its 200 terms, its summands, and the mirrored kernel, read at an index.

  The reference lays the 8 × 25 shifted image windows out as 200 rows (`k = 25 c + q`) of 124 · 124 positions, the mirrored
  kernel as 200 columns per output channel, adds the two and takes the maximum over `k` from -∞.
-/
import proofs.«154183_j61211873902638_2_alg».proof.Proof.Gen.ReferenceIdeal.Read
import proofs.«154183_j61211873902638_2_alg».proof.Proof.TropSpec
import proofs.«154183_j61211873902638_2_alg».proof.Proof.LibFoldExtrema
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.TropConv

local notation "𝕀" => Idealize.ShloMosaic.Ideal

/-- The reduced index `(b, o, p)` with coordinate `k` put back on the reduced axis is `(b, o, k, p)`. -/
theorem lift_eq (h : S4x16x200x15376.Reduces [2] S4x16x15376) (b : Fin 4) (o : Fin 16) (p : Fin 15376)
    (k : Fin (S4x16x200x15376.size 2)) :
    h.lift (ix3 b o p) k = ix4 b o (⟨k.val, k.isLt⟩ : Fin 200) p := by
  funext a; apply Fin.ext
  fin_cases a <;> rfl

/-- The maximum from -∞ over the 200 rows, at `(b, o, p)`: the supremum of the summands there. -/
theorem reduce_apply (x0 : S4x8x128x128.Idx → 𝕀 .f32) (x1 : S16x8x5x5.Idx → 𝕀 .f32) (b : Fin 4) (o : Fin 16)
    (p : Fin 15376) :
    val_main_v61 (F := 𝕀) x0 x1 (ix3 b o p) = ⨆ k : Fin 200, val_main_v60 (F := 𝕀) x0 x1 (ix4 b o k p) := by
  unfold val_main_v61 val_main_cst
  rw [Host.reduce_eq_fold_single FloatOps.maximumf _ _ reducesTo_S4x16x200x15376_S4x16x15376_d2 (by decide) h_S_]
  show Finset.fold max (Ideal.ofBits .f32 0xFF800000#32) _ _ = _
  rw [Cert.FoldExtrema.ofBits_neg_inf, Cert.FoldExtrema.fold_max_bot, Finset.sup_univ_eq_iSup]
  exact iSup_congr fun k => congrArg (val_main_v60 (F := 𝕀) x0 x1) (lift_eq _ b o p k)

/-- Summand `k = 25 c + q` at position `p = 124 y + x`: the mirrored kernel at `(o, c, q / 5, q mod 5)` plus window `q` of
    channel `c` at `(y, x)`. -/
theorem summand_apply (x0 : S4x8x128x128.Idx → 𝕀 .f32) (x1 : S16x8x5x5.Idx → 𝕀 .f32) (b : Fin 4) (o : Fin 16)
    (k : Fin 200) (y x : Fin 124) :
    val_main_v60 (F := 𝕀) x0 x1 (ix4 b o k (⟨y.val * 124 + x.val, by have := y.isLt; have := x.isLt; omega⟩ : Fin 15376))
      = val_main_v0 (F := 𝕀) x1 (ix4 o (⟨k.val / 25, by have := k.isLt; omega⟩ : Fin 8)
          (⟨k.val / 5 % 5, Nat.mod_lt _ (by norm_num)⟩ : Fin 5) (⟨k.val % 5, Nat.mod_lt _ (by norm_num)⟩ : Fin 5))
        + val_main_v53 (F := 𝕀) x0 (ix5 b (⟨k.val / 25, by have := k.isLt; omega⟩ : Fin 8)
          (⟨k.val % 25, Nat.mod_lt _ (by norm_num)⟩ : Fin 25) y x) := by
  have hb := b.isLt; have ho := o.isLt; have hk := k.isLt; have hy := y.isLt; have hx := x.isLt
  rw [val_main_v60_apply, val_main_v58_apply, val_main_v56_apply, val_main_v55_apply, val_main_v59_apply,
    val_main_v57_apply, val_main_v54_apply]
  show _ + _ = _ + _
  congr 1
  · refine congrArg _ (funext fun a => Fin.ext ?_)
    match a with
    | ⟨0, _⟩ => show (o.val * 200 + k.val) / 200 = o.val; omega
    | ⟨1, _⟩ => show (o.val * 200 + k.val) / 25 % 8 = k.val / 25; omega
    | ⟨2, _⟩ => show (o.val * 200 + k.val) / 5 % 5 = k.val / 5 % 5; omega
    | ⟨3, _⟩ => show (o.val * 200 + k.val) % 5 = k.val % 5; omega
  · refine congrArg _ (funext fun a => Fin.ext ?_)
    match a with
    | ⟨0, _⟩ => show ((b.val * 200 + k.val) * 15376 + (y.val * 124 + x.val)) / 3075200 = b.val; omega
    | ⟨1, _⟩ => show ((b.val * 200 + k.val) * 15376 + (y.val * 124 + x.val)) / 384400 % 8 = k.val / 25; omega
    | ⟨2, _⟩ => show ((b.val * 200 + k.val) * 15376 + (y.val * 124 + x.val)) / 15376 % 25 = k.val % 25; omega
    | ⟨3, _⟩ => show ((b.val * 200 + k.val) * 15376 + (y.val * 124 + x.val)) / 124 % 124 = y.val; omega
    | ⟨4, _⟩ => show ((b.val * 200 + k.val) * 15376 + (y.val * 124 + x.val)) % 124 = x.val; omega

end Cert.ReferenceIdeal.RefValue

end
-- ==== Proof.RefValue.lean ====
/-
  The reference's result as the convolution of its arguments.

  At `(b, o, y, x)` the reference's result is the supremum over its 200 rows `k = 25 c + q` of the mirrored kernel at
  `(o, c, q / 5, q mod 5)` plus window `q` of channel `c` of the image at `(y, x)`, that is the image at
  `(b, c, y + q / 5, x + q mod 5)`: the convolution's terms, listed channel-major where the convolution lists them
  offset-major. A supremum does not depend on the listing, and addition of extended reals is commutative.
-/
import proofs.«154183_j61211873902638_2_alg».proof.Proof.RefPatches
import proofs.«154183_j61211873902638_2_alg».proof.Proof.RefReduce

set_option maxRecDepth 16384

noncomputable section

namespace Cert.ReferenceIdeal.RefValue

open Idealize.ShloMosaic Idealize.ShloMosaic.ValueIdx Cert.ReferenceIdeal Cert.ReferenceIdeal.Read Cert.TropConv

local notation "𝕀" => Idealize.ShloMosaic.Ideal

/-- Row `k = q + 25 c` of the reference's 200, at a kept position: the convolution's term for offset `q`, channel `c`. -/
theorem row_eq (x0 : S4x8x128x128.Idx → 𝕀 .f32) (x1 : S16x8x5x5.Idx → 𝕀 .f32) (b : Fin 4) (o : Fin 16) (y x : Fin 124)
    (q : Fin 25) (c : Fin 8) (k : Fin 200) (hk : k.val = q.val + 25 * c.val) :
    val_main_v60 (F := 𝕀) x0 x1
        (ix4 b o k (⟨y.val * 124 + x.val, by have := y.isLt; have := x.isLt; omega⟩ : Fin 15376))
      = x0 (ix4 b c (shift (q.val / 5) y) (shift (q.val % 5) x))
        + x1 (ix4 o c (flip (q.val / 5)) (flip (q.val % 5))) := by
  have hq := q.isLt; have hc := c.isLt
  rw [summand_apply, patches_apply]
  unfold val_main_v0
  rw [flip_apply, add_comm]
  congr 2
  · refine funext fun a => Fin.ext ?_
    match a with
    | ⟨0, _⟩ => rfl
    | ⟨1, _⟩ => show k.val / 25 = c.val; omega
    | ⟨2, _⟩ => show (y.val + k.val % 25 / 5) % 128 = (y.val + q.val / 5) % 128; omega
    | ⟨3, _⟩ => show (x.val + k.val % 25 % 5) % 128 = (x.val + q.val % 5) % 128; omega
  · refine funext fun a => Fin.ext ?_
    match a with
    | ⟨0, _⟩ => rfl
    | ⟨1, _⟩ => show k.val / 25 = c.val; omega
    | ⟨2, _⟩ => show 4 - k.val / 5 % 5 % 5 = 4 - q.val / 5 % 5; omega
    | ⟨3, _⟩ => show 4 - k.val % 5 % 5 = 4 - q.val % 5 % 5; omega

/-- The reference's result at `(b, o, y, x)`: the convolution of the image and the kernel. -/
theorem result_apply (x0 : S4x8x128x128.Idx → 𝕀 .f32) (x1 : S16x8x5x5.Idx → 𝕀 .f32) (b : Fin 4) (o : Fin 16)
    (y x : Fin 124) :
    val_main_v62 (F := 𝕀) x0 x1 (ix4 b o y x) = conv x0 x1 b o y x := by
  have hb := b.isLt; have ho := o.isLt; have hy := y.isLt; have hx := x.isLt
  have e : idx_main_v62 (ix4 b o y x) = ix3 b o (⟨y.val * 124 + x.val, by omega⟩ : Fin 15376) := by
    funext a; apply Fin.ext
    match a with
    | ⟨0, _⟩ => show (((b.val * 16 + o.val) * 124 + y.val) * 124 + x.val) / 246016 = b.val; omega
    | ⟨1, _⟩ => show (((b.val * 16 + o.val) * 124 + y.val) * 124 + x.val) / 15376 % 16 = o.val; omega
    | ⟨2, _⟩ => show (((b.val * 16 + o.val) * 124 + y.val) * 124 + x.val) % 15376 = y.val * 124 + x.val; omega
  rw [val_main_v62_apply, e, reduce_apply]
  unfold conv
  rw [← (finProdFinEquiv (m := 8) (n := 25)).iSup_comp, ← (Equiv.prodComm (Fin 25) (Fin 8)).iSup_comp]
  refine iSup_congr fun p => ?_
  exact row_eq x0 x1 b o y x p.1 p.2 _ rfl

end Cert.ReferenceIdeal.RefValue

end
-- ==== Proof.lean ====
/-
  The max-plus convolution kernel against its jnp reference, over the extended reals.

  Both programs compute, at `(b, o, y, x)` with `y, x < 124`, the supremum over the 25 kernel offsets `(i, j)` and the 8
  input channels `c` of `img[b, c, y + i, x + j] + kernel[o, c, 4 - i, 4 - j]` (`TropConv.conv`).
  The kernel keeps a running maximum from -∞ over 200 taps built from rotated copies of an image block and rows of a
  re-laid weight table, one grid point per batch entry, and the host crops the 128 × 128 blocks to 124 × 124
  (`KernelValue`: the rotations never wrap inside the kept positions). The reference stacks 25 shifted windows, adds
  the mirrored kernel and reduces with a maximum from -∞ (`RefValue`). The two list the same 200 terms in different
  orders and add in different orders; a supremum and the addition of extended reals do not depend on either, so no
  finiteness of the inputs is used. The idealized kernel is the kernel's own text read over the extended reals, so
  there is nothing to preserve beyond that reading.
-/
import proofs.«154183_j61211873902638_2_alg».proof.Defs
import proofs.«154183_j61211873902638_2_alg».proof.Proof.Gen.Kernel
import proofs.«154183_j61211873902638_2_alg».proof.Proof.Gen.Kernel.Skeleton
import proofs.«154183_j61211873902638_2_alg».proof.Proof.Gen.Kernel.Launch
import proofs.«154183_j61211873902638_2_alg».proof.Proof.Gen.Kernel.Points
import proofs.«154183_j61211873902638_2_alg».proof.Proof.Gen.Kernel.Frame
import proofs.«154183_j61211873902638_2_alg».proof.Proof.Gen.KernelIdeal
import proofs.«154183_j61211873902638_2_alg».proof.Proof.Gen.KernelIdeal.Skeleton
import proofs.«154183_j61211873902638_2_alg».proof.Proof.Gen.KernelIdeal.Launch
import proofs.«154183_j61211873902638_2_alg».proof.Proof.Gen.KernelIdeal.Points
import proofs.«154183_j61211873902638_2_alg».proof.Proof.Gen.KernelIdeal.Frame
import proofs.«154183_j61211873902638_2_alg».proof.Proof.Gen.ReferenceIdeal
import proofs.«154183_j61211873902638_2_alg».proof.Proof.Gen.Pre_finite_inputs
import proofs.«154183_j61211873902638_2_alg».proof.Proof.Gen.ReferenceIdeal.Run
import proofs.«154183_j61211873902638_2_alg».proof.Proof.Gen.ReferenceIdeal.Read
import Idealize.ShloMosaic.Adequacy
import Idealize.ShloMosaic.Init

import proofs.«154183_j61211873902638_2_alg».proof.Proof.KernelValue
import proofs.«154183_j61211873902638_2_alg».proof.Proof.RefValue

noncomputable section

namespace Cert.Proof

open Idealize.ShloMosaic Idealize.ShloMosaic.ValueIdx Idealize.SL.Sem Cert.TropConv

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2)
    (Cert.ReferenceIdeal.Value.run (F := Idealize.ShloMosaic.Ideal) m ρ)

/-- Both runs end with the result at the convolution of arguments that agree. -/
theorem algebraic : Cert.algebraic_KernelIdeal_ReferenceIdeal := by
  intro m ρ m' ρ' _ hagree
  refine ⟨_, Cert.KernelIdeal.KArray.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  rw [Cert.ReferenceIdeal.Read.val_main_v62_eq, (hagree c).1, (hagree c).2]
  funext i
  rw [eq_ix4 i]
  exact Cert.ReferenceIdeal.RefValue.result_apply _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
